-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : IVec S8192x8192 32 := iotaInDim S8192x8192 32 0
  let main_v20 : IVec S8192x8192 32 := iotaInDim S8192x8192 32 1
  let main_c_6 : IVec S_ 32 := constantI S_ 32 0#32
  let main_v21 : IVec S8192x8192 32 := broadcastInDim S8192x8192 ![] bcast_S_S8192x8192 main_c_6
  let main_v22 : IVec S8192x8192 32 := addi main_v19 main_v21
  let main_v23 : IVec S8192x8192 1 := cmpi .eq main_v22 main_v20
  let main_v24 : FVec F S8192x8192 .f32 := uitofp .f32 main_v23
  let main_v25 : FVec F S8192x8192 .f32 := addf main_arg1 main_v24
  let main_cst_7 : FVec F S_ .f32 := constant S_ .f32 0x00000000#32
  let main_v26 : FVec F S8192 .f32 := (fun x v => Host.reduceAdd x v reducesTo_S8192x8192_S8192_d1 h_S_) main_v25 main_cst_7
  let main_cst_8 : FVec F S_ .f32 := constant S_ .f32 0x00000000#32
  let main_v27 : FVec F S8192 .f32 := broadcastInDim S8192 ![] bcast_S_S8192 main_cst_8
  let main_v28 : IVec S8192 1 := cmpf .ogt main_v26 main_v27
  let main_c_9 : IVec S_ 1 := constantI S_ 1 1#1
  let main_v29 : IVec S_ 1 := (fun x v => Host.reduce IntOp.andi x v reducesTo_S8192_S_d0 h_S_) main_v28 main_c_9
  let main_v30 : IVec S_ 1 := andi main_v18 main_v29
  main_v30

def fn {F : FTy → Type} [FloatOps F] (main_arg0 : FVec F S8192x256 .f32) (main_arg1 : FVec F S8192x8192 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S8192x1 : Shape := ⟨2, ![8192, 1]⟩
abbrev S512x8192 : Shape := ⟨2, ![512, 8192]⟩
abbrev S512x1 : Shape := ⟨2, ![512, 1]⟩
abbrev S512 : Shape := ⟨1, ![512]⟩
abbrev S1024x256 : Shape := ⟨2, ![1024, 256]⟩
abbrev S1024x1 : Shape := ⟨2, ![1024, 1]⟩
abbrev S1x256 : Shape := ⟨2, ![1, 256]⟩
abbrev S512x256 : Shape := ⟨2, ![512, 256]⟩

abbrev nBuf : Space → Nat
  | .hbm => 8
  | .vmem => 19
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x1, .f32⟩
  | .hbm, ⟨5, _⟩ => ⟨S8192x256, .f32⟩
  | .hbm, ⟨6, _⟩ => ⟨S1x256, .f32⟩
  | .hbm, ⟨7, _⟩ => ⟨S8192x256, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S1024x256, .f32⟩
  | .local _ .vmem, ⟨5, _⟩ => ⟨S1024x256, .f32⟩
  | .local _ .vmem, ⟨6, _⟩ => ⟨S256x256, .f32⟩
  | .local _ .vmem, ⟨7, _⟩ => ⟨S1024x1, .f32⟩
  | .local _ .vmem, ⟨8, _⟩ => ⟨S1024x1, .f32⟩
  | .local _ .vmem, ⟨9, _⟩ => ⟨S1024x256, .f32⟩
  | .local _ .vmem, ⟨10, _⟩ => ⟨S1024x256, .f32⟩
  | .local _ .vmem, ⟨11, _⟩ => ⟨S512x8192, .f32⟩
  | .local _ .vmem, ⟨12, _⟩ => ⟨S512x8192, .f32⟩
  | .local _ .vmem, ⟨13, _⟩ => ⟨S8192x256, .f32⟩
  | .local _ .vmem, ⟨14, _⟩ => ⟨S512x1, .f32⟩
  | .local _ .vmem, ⟨15, _⟩ => ⟨S512x1, .f32⟩
  | .local _ .vmem, ⟨16, _⟩ => ⟨S1x256, .f32⟩
  | .local _ .vmem, ⟨17, _⟩ => ⟨S512x256, .f32⟩
  | .local _ .vmem, ⟨18, _⟩ => ⟨S512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def k2_mult1 (i : grid2.Coords) : BitVec 32 :=
  let arg0 : BitVec 32 := BitVec.ofNat 32 (i 0).val
  let c512_i32 : BitVec 32 := 512#32
  let v0 : BitVec 32 := Scalar.muli arg0 c512_i32
  v0
def k2_off1 (i : grid2.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v6 : Index := Scalar.indexCast v1
  let c0_3 : Index := 0#32
  ![v6.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S1024x256_S1024x256_0_0 : ∀ a, (![0, 0] : Fin 2 → Nat) a + S1024x256.size a ≤ S1024x256.size a
  h_S1024x256 : 0 < S1024x256.numel
  inb_S256x256_S256x256_0_0 : ∀ a, (![0, 0] : Fin 2 → Nat) a + S256x256.size a ≤ S256x256.size a
  h_S256x256 : 0 < S256x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  shapeCasts_S256_S1x256 : S256.ShapeCasts S1x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  h_S512x256 : 0 < S512x256.numel
  shapeCasts_S512x256_S512x256 : S512x256.ShapeCasts S512x256
  shapeCasts_S512x1_S512x1 : S512x1.ShapeCasts S512x1
  broadcasts_S512x1_S512x256 : S512x1.Broadcasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  dot_S1024x256_S256x256_S1024x256_1_0_0_1_n_n_wf : DotDims.WF S1024x256 S256x256 S1024x256 [1] [0] [0] [1] [] []
  dot_S512x8192_S8192x256_S512x256_1_0_0_1_n_n_wf : DotDims.WF S512x8192 S8192x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)
  hrank2 : 0 < grid2.rank
  k2_mult1_dvd : ∀ i : grid2.Coords, 512 ∣ (k2_mult1 i).toNat
  k2_off1_inb : ∀ i : grid2.Coords, ∀ a, (k2_off1 i) a + S512x256.size a ≤ S8192x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x8192.size a ≤ S8192x8192.size a
  hwx2_0 : ∀ i : grid2.Coords, EltTy.bits .f32 = 32 ∨ (Rect.block (s := S8192x8192) S512x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .f32 = 32 ∨ (Rect.block (s := S8192x256) S8192x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x256.size a ≤ S8192x256.size a
  hwx2_4 : ∀ i : grid2.Coords, EltTy.bits .f32 = 32 ∨ (Rect.block (s := S8192x256) S512x256.size (cc2_transform_4 i) (hinb2_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S512x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S512x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x256 : Shape := ⟨2, ![1, 256]⟩

abbrev nBuf : Space → Nat
  | .hbm => 32
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S8192x8192, .f32⟩
  | .hbm, ⟨20, _⟩ => ⟨S8192x8192, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x256, .f32⟩
  | .hbm, ⟨25, _⟩ => ⟨S8192x256, .f32⟩
  | .hbm, ⟨26, _⟩ => ⟨S1x256, .f32⟩
  | .hbm, ⟨27, _⟩ => ⟨S8192x256, .f32⟩
  | .hbm, ⟨28, _⟩ => ⟨S8192x256, .f32⟩
  | .hbm, ⟨29, _⟩ => ⟨S_, .f32⟩
  | .hbm, ⟨30, _⟩ => ⟨S8192x256, .f32⟩
  | .hbm, ⟨31, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_cst : Ref sig .tc := ⟨.hbm, 29, rfl⟩
abbrev main_call0_v0 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KernelRun.lean ====
/-
  The idealized kernel's run with its result named. The program is three kernel launches with one host reshape before
  the third; every weakly fair execution terminates without a fault, and at the end each core's result buffer holds
  what the boundary-by-boundary fold of the program leaves there (the contents after the third launch's write-backs),
  while the four argument arrays are as launched.
-/
import proofs.«125034_j79121887527623_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the arguments end as launched. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Whole

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.Bodies.lean ====
/-
  The three kernel bodies, each read at one entry of the block it stores, over the extended reals.

  • the degree body: entry (p, ·) of its 512×1 block is the reciprocal square root of one plus the sum of row p of the
    512×8192 block it loads;
  • the feature body: entry (p, q) of its 1024×256 block is row p of the loaded features against column q of the
    loaded weights, times the loaded scale of row p;
  • the aggregation body: entry (p, q) of its 512×256 block is the scale of row p times (row p of the loaded adjacency
    block against column q of the whole scaled-feature array, plus the entry (p, q) of the block's own rows of that
    array), plus the bias entry q, clamped below at zero.
-/
import proofs.«125034_j79121887527623_2_alg».proof.Proof.Gen.KernelIdeal.Frame
import proofs.«125034_j79121887527623_2_alg».proof.Proof.LibColumn
import proofs.«125034_j79121887527623_2_alg».proof.Proof.LibMatDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Bodies

open Cert.KernelIdeal Cert.KernelIdeal.Gen
open Idealize.ShloMosaic Idealize.ShloMosaic.ValueIdx

/-- The f32 pattern of 1.0 denotes the real one. -/
theorem one_pattern : Ideal.ofBits .f32 0x3F800000#32 = 1 := by
  simp [Ideal.ofBits, Ideal.ieee]
  rw [← EReal.coe_mul]
  norm_num

/-- The degree body at entry (p, z). -/
theorem degree_body (x0 : FVec Ideal S512x8192 .f32) (p : Fin 512) (z : Fin 1) :
    k0_pay1 (F := Ideal) x0 (ix2 p z) = Ideal.rsqrt ((∑ j : Fin 8192, x0 (ix2 p j)) + 1) := by
  unfold k0_pay1
  show Ideal.rsqrt (shapeCast S512x1 _ shapeCasts_S512_S512x1 (ix2 p z) + Ideal.ofBits .f32 0x3F800000#32) = _
  rw [one_pattern]
  refine congrArg (fun u => Ideal.rsqrt (u + 1)) ?_
  refine (shapeCast_a_a1_apply _ shapeCasts_S512_S512x1 p z).trans ?_
  refine (Ideal.multiReduction_add_single x0 0x00000000#32 reduces_S512x8192_S512 (.inl rfl) rfl (ix1 p)).trans ?_
  refine Finset.sum_congr rfl fun j _ => congrArg x0 ?_
  funext a
  apply Fin.ext
  match a with
  | ⟨0, _⟩ => rfl
  | ⟨1, _⟩ => rfl

/-! The two matrix products' operand index maps, coordinate by coordinate. -/

theorem dot_S1024x256_S256x256_S1024x256_1_0_0_1_n_n_l0 (j : _) (c : dot_S1024x256_S256x256_S1024x256_1_0_0_1_n_n.contr.Idx) : (dot_S1024x256_S256x256_S1024x256_1_0_0_1_n_n.lhsIdx j c 0).val = (j 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem dot_S1024x256_S256x256_S1024x256_1_0_0_1_n_n_l1 (j : _) (c : dot_S1024x256_S256x256_S1024x256_1_0_0_1_n_n.contr.Idx) : (dot_S1024x256_S256x256_S1024x256_1_0_0_1_n_n.lhsIdx j c 1).val = (c ⟨0, by decide⟩).val :=
  dot_S1024x256_S256x256_S1024x256_1_0_0_1_n_n.lhsIdx_val_of_single rfl j c
theorem dot_S1024x256_S256x256_S1024x256_1_0_0_1_n_n_r0 (j : _) (c : dot_S1024x256_S256x256_S1024x256_1_0_0_1_n_n.contr.Idx) : (dot_S1024x256_S256x256_S1024x256_1_0_0_1_n_n.rhsIdx j c 0).val = (c ⟨0, by decide⟩).val :=
  dot_S1024x256_S256x256_S1024x256_1_0_0_1_n_n.rhsIdx_val_of_single rfl j c
theorem dot_S1024x256_S256x256_S1024x256_1_0_0_1_n_n_r1 (j : _) (c : dot_S1024x256_S256x256_S1024x256_1_0_0_1_n_n.contr.Idx) : (dot_S1024x256_S256x256_S1024x256_1_0_0_1_n_n.rhsIdx j c 1).val = (j 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

theorem dot_S512x8192_S8192x256_S512x256_1_0_0_1_n_n_l0 (j : _) (c : dot_S512x8192_S8192x256_S512x256_1_0_0_1_n_n.contr.Idx) : (dot_S512x8192_S8192x256_S512x256_1_0_0_1_n_n.lhsIdx j c 0).val = (j 0).val := by
  unfold DotDims.lhsIdx
  rw [dif_neg (show ¬(0 : Fin S512x8192.rank) ∈ dot_S512x8192_S8192x256_S512x256_1_0_0_1_n_n.lhsBatch by decide), dif_pos (show (0 : Fin S512x8192.rank) ∈ dot_S512x8192_S8192x256_S512x256_1_0_0_1_n_n.lhsNonContracting by decide)]
  rfl
theorem dot_S512x8192_S8192x256_S512x256_1_0_0_1_n_n_l1 (j : _) (c : dot_S512x8192_S8192x256_S512x256_1_0_0_1_n_n.contr.Idx) : (dot_S512x8192_S8192x256_S512x256_1_0_0_1_n_n.lhsIdx j c 1).val = (c ⟨0, by decide⟩).val :=
  dot_S512x8192_S8192x256_S512x256_1_0_0_1_n_n.lhsIdx_val_of_single rfl j c
theorem dot_S512x8192_S8192x256_S512x256_1_0_0_1_n_n_r0 (j : _) (c : dot_S512x8192_S8192x256_S512x256_1_0_0_1_n_n.contr.Idx) : (dot_S512x8192_S8192x256_S512x256_1_0_0_1_n_n.rhsIdx j c 0).val = (c ⟨0, by decide⟩).val :=
  dot_S512x8192_S8192x256_S512x256_1_0_0_1_n_n.rhsIdx_val_of_single rfl j c
theorem dot_S512x8192_S8192x256_S512x256_1_0_0_1_n_n_r1 (j : _) (c : dot_S512x8192_S8192x256_S512x256_1_0_0_1_n_n.contr.Idx) : (dot_S512x8192_S8192x256_S512x256_1_0_0_1_n_n.rhsIdx j c 1).val = (j 1).val := by
  unfold DotDims.rhsIdx
  rw [dif_neg (show ¬(1 : Fin S8192x256.rank) ∈ dot_S512x8192_S8192x256_S512x256_1_0_0_1_n_n.rhsBatch by decide), dif_pos (show (1 : Fin S8192x256.rank) ∈ dot_S512x8192_S8192x256_S512x256_1_0_0_1_n_n.rhsNonContracting by decide)]
  rfl

/-- The feature body at entry (p, q). -/
theorem feature_body (v0 : FVec Ideal S1024x256 .f32) (v1 : FVec Ideal S256x256 .f32) (v3 : FVec Ideal S1024x1 .f32)
    (p : Fin 1024) (q : Fin 256) :
    k1_pay1 (F := Ideal) v0 v1 v3 (ix2 p q) = (∑ l : Fin 256, v0 (ix2 p l) * v1 (ix2 l q)) * v3 (ix2 p (0 : Fin 1)) := by
  unfold k1_pay1
  show FloatOps.matmul dot_S1024x256_S256x256_S1024x256_1_0_0_1_n_n (some .fp32) v0 v1 (constant (F := Ideal) S1024x256 .f32 0x00000000#32) (ix2 p q)
      * broadcastTo S1024x256 (shapeCast S1024x1 v3 shapeCasts_S1024x1_S1024x1) broadcasts_S1024x1_S1024x256 (ix2 p q) = _
  rw [shapeCast_self]
  refine congr (congrArg HMul.hMul ?_) ?_
  · exact mat_dot_zero dot_S1024x256_S256x256_S1024x256_1_0_0_1_n_n (some .fp32) rfl rfl dot_S1024x256_S256x256_S1024x256_1_0_0_1_n_n_l0 dot_S1024x256_S256x256_S1024x256_1_0_0_1_n_n_l1 dot_S1024x256_S256x256_S1024x256_1_0_0_1_n_n_r0 dot_S1024x256_S256x256_S1024x256_1_0_0_1_n_n_r1 v0 v1 p q
  · exact broadcastTo_a1_ab_apply v3 broadcasts_S1024x1_S1024x256 p q

/-- The aggregation body at entry (p, q). -/
theorem aggregate_body (v2 : FVec Ideal S512x8192 .f32) (v3 : FVec Ideal S8192x256 .f32) (v7 : FVec Ideal S512x256 .f32)
    (v9 : FVec Ideal S512x1 .f32) (v14 : FVec Ideal S1x256 .f32) (p : Fin 512) (q : Fin 256) :
    k2_pay1 (F := Ideal) v2 v3 v7 v9 v14 (ix2 p q)
      = max (v9 (ix2 p (0 : Fin 1)) * ((∑ j : Fin 8192, v2 (ix2 p j) * v3 (ix2 j q)) + v7 (ix2 p q)) + v14 (ix2 (0 : Fin 1) q)) 0 := by
  unfold k2_pay1
  show max (broadcastTo S512x256 (shapeCast S512x1 v9 shapeCasts_S512x1_S512x1) broadcasts_S512x1_S512x256 (ix2 p q)
        * (FloatOps.matmul dot_S512x8192_S8192x256_S512x256_1_0_0_1_n_n (some .fp32) v2 (shapeCast S8192x256 v3 shapeCasts_S8192x256_S8192x256) (constant (F := Ideal) S512x256 .f32 0x00000000#32) (ix2 p q)
            + shapeCast S512x256 v7 shapeCasts_S512x256_S512x256 (ix2 p q))
        + broadcastTo S512x256 (shapeCast S1x256 v14 shapeCasts_S1x256_S1x256) broadcasts_S1x256_S512x256 (ix2 p q))
      (Ideal.ofBits .f32 0x00000000#32) = _
  rw [shapeCast_self, shapeCast_self, shapeCast_self, shapeCast_self, Ideal.ofBits_zero_f32,
    broadcastTo_a1_ab_apply v9 broadcasts_S512x1_S512x256 p q,
    broadcastTo_1b_ab_apply v14 broadcasts_S1x256_S512x256 p q,
    mat_dot_zero dot_S512x8192_S8192x256_S512x256_1_0_0_1_n_n (some .fp32) rfl rfl dot_S512x8192_S8192x256_S512x256_1_0_0_1_n_n_l0 dot_S512x8192_S8192x256_S512x256_1_0_0_1_n_n_l1 dot_S512x8192_S8192x256_S512x256_1_0_0_1_n_n_r0 dot_S512x8192_S8192x256_S512x256_1_0_0_1_n_n_r1 v2 v3 p q]

end Cert.KernelIdeal.Bodies

end
-- ==== Proof.Degree.lean ====
/-
  The first launch: the scale of every node. Grid point t loads rows 512·t … 512·t + 511 of the adjacency (all 8192
  columns) and writes back rows 512·t … 512·t + 511 of the 8192×1 scale array; the sixteen blocks tile that array, so
  after the launch the scale array holds, at row r, the reciprocal square root of one plus the sum of row r of the
  adjacency as the launch found it.
-/
import proofs.«125034_j79121887527623_2_alg».proof.Proof.Gen.KernelIdeal.Frame
import proofs.«125034_j79121887527623_2_alg».proof.Proof.LibColumn
import proofs.«125034_j79121887527623_2_alg».proof.Proof.LibMatDot
import proofs.«125034_j79121887527623_2_alg».proof.Proof.Bodies
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Degree

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The scale array as a function of the adjacency array: row by row. -/
def scaleArr (A : S8192x8192.Idx → EReal) : S8192x1.Idx → EReal :=
  fun i => Ideal.rsqrt ((∑ j : Fin 8192, A (ix2 (⟨(i 0).val, idx2_lt0 i⟩ : Fin 8192) j)) + 1)

/-- The two windows' block indices at grid point t: both are (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What grid point t writes back is block t of the scale array of the adjacency as found. -/
theorem flushed_eq (c : Dev nD) (t : Fin cfg0.N) :
    (dat0 V c).flushed 1 t = ((cfg0.win 1).blk t).view.read (Elt Ideal) (scaleArr (V c main_arg1)) := by
  show (cfg0.win 1).cut (grid0.coords t) ((dat0 V c).after 1 t) = _
  rw [after0_1]
  unfold out0_1
  rw [View.canon_unit_zero hz]
  simp only [View.ld_unit_zero (S := S512x8192) hz]
  obtain ⟨e0, e1, e2, e3⟩ := idx_facts t
  funext y
  obtain ⟨p, z, rfl⟩ : ∃ (p : Fin 512) (z : Fin 1), y = ix2 p z := ⟨y 0, y 1, eq_ix2 y⟩
  show k0_pay1 (F := Ideal) (iblk0 V c 0 t) (ix2 p z) = scaleArr (V c main_arg1) (((cfg0.win 1).blk t).view.emb (ix2 p z))
  refine (degree_body (iblk0 V c 0 t) p z).trans ?_
  unfold scaleArr
  refine congrArg (fun u => Ideal.rsqrt (u + 1)) (Finset.sum_congr rfl fun j _ => ?_)
  show V c main_arg1 (((cfg0.win 0).blk t).view.emb (ix2 p j)) = V c main_arg1 _
  refine congrArg (V c main_arg1) ?_
  funext a
  apply Fin.ext
  match a with
  | ⟨0, _⟩ =>
    show win0_0.index t (0 : Fin 2) * 512 + 1 * p.val = win0_1.index t (0 : Fin 2) * 512 + 1 * p.val
    omega
  | ⟨1, _⟩ =>
    show win0_0.index t (1 : Fin 2) * 8192 + 1 * j.val = j.val
    omega

/-- An index of the scale array is in point t's block iff each coordinate is in the block's range. -/
theorem mem_blk (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- Every row of the scale array is in the block of the point its row number divided by 512 names. -/
theorem cover (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  have hN : cfg0.N = 16 := N_0
  refine ⟨⟨(i 0).val / 512, by omega⟩, flush0_1 _, ?_⟩
  obtain ⟨e0, e1, e2, e3⟩ := idx_facts ⟨(i 0).val / 512, by omega⟩
  rw [mem_blk]
  intro a
  match a with
  | ⟨0, _⟩ =>
    show win0_1.index _ (0 : Fin 2) * 512 ≤ (i 0).val ∧ (i 0).val < win0_1.index _ (0 : Fin 2) * 512 + 512
    rw [e2]; show (i 0).val / 512 * 512 ≤ (i 0).val ∧ (i 0).val < (i 0).val / 512 * 512 + 512
    omega
  | ⟨1, _⟩ =>
    show win0_1.index _ (1 : Fin 2) * 1 ≤ (i 1).val ∧ (i 1).val < win0_1.index _ (1 : Fin 2) * 1 + 1
    rw [e3]; omega

/-- After the launch the scale array is `scaleArr` of the adjacency as the launch found it. -/
theorem final (c : Dev nD) : (dat0 V c).arrAt 1 cfg0.N = scaleArr (V c main_arg1) :=
  (dat0 V c).arrAt_eq_of_cover 1 (scaleArr (V c main_arg1)) (fun t _ => flushed_eq V c t) cover

end Cert.KernelIdeal.Degree

end
-- ==== Proof.Features.lean ====
/-
  The second launch: the scaled features. Grid point t loads rows 1024·t … 1024·t + 1023 of the node features, the
  whole 256×256 weight array and the same rows of the 8192×1 scale array, and writes back the same rows of the 8192×256
  scaled-feature array; the eight blocks tile that array, so after the launch its entry (r, k) is row r of the features
  against column k of the weights, times the scale of row r — all three as the launch found them.
-/
import proofs.«125034_j79121887527623_2_alg».proof.Proof.Gen.KernelIdeal.Frame
import proofs.«125034_j79121887527623_2_alg».proof.Proof.LibColumn
import proofs.«125034_j79121887527623_2_alg».proof.Proof.LibMatDot
import proofs.«125034_j79121887527623_2_alg».proof.Proof.Bodies
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Features

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The scaled-feature array as a function of the feature, weight and scale arrays: entry by entry. -/
def scaledArr (X : S8192x256.Idx → EReal) (W : S256x256.Idx → EReal) (D : S8192x1.Idx → EReal) : S8192x256.Idx → EReal :=
  fun i => (∑ l : Fin 256, X (ix2 (⟨(i 0).val, idx2_lt0 i⟩ : Fin 8192) l) * W (ix2 l (⟨(i 1).val, idx2_lt1 i⟩ : Fin 256)))
    * D (ix2 (⟨(i 0).val, idx2_lt0 i⟩ : Fin 8192) (0 : Fin 1))

/-- The four windows' block indices at grid point t: (t, 0) for the features, the scale and the result, (0, 0) for
    the weights. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What grid point t writes back is block t of the scaled-feature array of the three arrays as found. -/
theorem flushed_eq (c : Dev nD) (t : Fin cfg1.N) :
    (dat1 V c).flushed 3 t
      = ((cfg1.win 3).blk t).view.read (Elt Ideal) (scaledArr (V c main_arg0) (V c main_arg2) (V c main_v0)) := by
  show (cfg1.win 3).cut (grid1.coords t) ((dat1 V c).after 3 t) = _
  rw [after1_3]
  unfold out1_3
  rw [View.canon_unit_zero hz]
  simp only [View.ld_unit_zero (S := S1024x256) hz, View.ld_unit_zero (S := S256x256) hz, View.ld_unit_zero (S := S1024x1) hz]
  obtain ⟨e0, e1, e2, e3, e4, e5, e6, e7⟩ := idx_facts t
  funext y
  obtain ⟨p, q, rfl⟩ : ∃ (p : Fin 1024) (q : Fin 256), y = ix2 p q := ⟨y 0, y 1, eq_ix2 y⟩
  show k1_pay1 (F := Ideal) (iblk1 V c 0 t) (iblk1 V c 1 t) (iblk1 V c 2 t) (ix2 p q)
    = scaledArr (V c main_arg0) (V c main_arg2) (V c main_v0) (((cfg1.win 3).blk t).view.emb (ix2 p q))
  refine (feature_body (iblk1 V c 0 t) (iblk1 V c 1 t) (iblk1 V c 2 t) p q).trans ?_
  unfold scaledArr
  refine congr (congrArg HMul.hMul (Finset.sum_congr rfl fun l _ => congr (congrArg HMul.hMul ?_) ?_)) ?_
  · show V c main_arg0 (((cfg1.win 0).blk t).view.emb (ix2 p l)) = V c main_arg0 _
    refine congrArg (V c main_arg0) ?_
    funext a
    apply Fin.ext
    match a with
    | ⟨0, _⟩ =>
      show win1_0.index t (0 : Fin 2) * 1024 + 1 * p.val = win1_3.index t (0 : Fin 2) * 1024 + 1 * p.val
      omega
    | ⟨1, _⟩ =>
      show win1_0.index t (1 : Fin 2) * 256 + 1 * l.val = l.val
      omega
  · show V c main_arg2 (((cfg1.win 1).blk t).view.emb (ix2 l q)) = V c main_arg2 _
    refine congrArg (V c main_arg2) ?_
    funext a
    apply Fin.ext
    match a with
    | ⟨0, _⟩ =>
      show win1_1.index t (0 : Fin 2) * 256 + 1 * l.val = l.val
      omega
    | ⟨1, _⟩ =>
      show win1_1.index t (1 : Fin 2) * 256 + 1 * q.val = win1_3.index t (1 : Fin 2) * 256 + 1 * q.val
      omega
  · show V c main_v0 (((cfg1.win 2).blk t).view.emb (ix2 p (0 : Fin 1))) = V c main_v0 _
    refine congrArg (V c main_v0) ?_
    funext a
    apply Fin.ext
    match a with
    | ⟨0, _⟩ =>
      show win1_2.index t (0 : Fin 2) * 1024 + 1 * p.val = win1_3.index t (0 : Fin 2) * 1024 + 1 * p.val
      omega
    | ⟨1, _⟩ =>
      show win1_2.index t (1 : Fin 2) * 1 + 1 * 0 = 0
      omega

/-- An index of the scaled-feature array is in point t's block iff each coordinate is in the block's range. -/
theorem mem_blk (t : Fin cfg1.N) (i : S8192x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v1).slice (win1_3.rect t)).set ↔ _
  rw [View.set_slice_whole, Rect.mem_set_unit]
  exact Iff.rfl

/-- Every entry of the scaled-feature array is in the block of the point its row number divided by 1024 names. -/
theorem cover (i : S8192x256.Idx) : ∃ t : Fin cfg1.N, (cfg1.win 3).flush t = true ∧ i ∈ ((cfg1.win 3).blk t).view.set := by
  have hi0 : (i 0).val < 8192 := (i 0).isLt
  have hi1 : (i 1).val < 256 := (i 1).isLt
  have hN : cfg1.N = 8 := N_1
  refine ⟨⟨(i 0).val / 1024, by omega⟩, flush1_3 _, ?_⟩
  obtain ⟨e0, e1, e2, e3, e4, e5, e6, e7⟩ := idx_facts ⟨(i 0).val / 1024, by omega⟩
  rw [mem_blk]
  intro a
  match a with
  | ⟨0, _⟩ =>
    show win1_3.index _ (0 : Fin 2) * 1024 ≤ (i 0).val ∧ (i 0).val < win1_3.index _ (0 : Fin 2) * 1024 + 1024
    rw [e6]; show (i 0).val / 1024 * 1024 ≤ (i 0).val ∧ (i 0).val < (i 0).val / 1024 * 1024 + 1024
    omega
  | ⟨1, _⟩ =>
    show win1_3.index _ (1 : Fin 2) * 256 ≤ (i 1).val ∧ (i 1).val < win1_3.index _ (1 : Fin 2) * 256 + 256
    rw [e7]; omega

/-- After the launch the scaled-feature array is `scaledArr` of the three arrays as the launch found them. -/
theorem final (c : Dev nD) :
    (dat1 V c).arrAt 3 cfg1.N = scaledArr (V c main_arg0) (V c main_arg2) (V c main_v0) :=
  (dat1 V c).arrAt_eq_of_cover 3 (scaledArr (V c main_arg0) (V c main_arg2) (V c main_v0)) (fun t _ => flushed_eq V c t) cover

end Cert.KernelIdeal.Features

end
-- ==== Proof.Aggregate.lean ====
/-
  The third launch: the aggregation. Grid point t loads rows 512·t … 512·t + 511 of the adjacency, the whole 8192×256
  scaled-feature array, the same rows of the scale array and the 1×256 bias row, reads the block's own rows of the
  scaled-feature array a second time at the row offset 512·t, and writes back rows 512·t … 512·t + 511 of the result.
  The sixteen blocks tile the result, so after the launch its entry (r, k) is

      max (scale r · (Σ_j adjacency (r, j) · scaled (j, k) + scaled (r, k)) + bias k) 0

  of the four arrays as the launch found them.
-/
import proofs.«125034_j79121887527623_2_alg».proof.Proof.Gen.KernelIdeal.Frame
import proofs.«125034_j79121887527623_2_alg».proof.Proof.LibColumn
import proofs.«125034_j79121887527623_2_alg».proof.Proof.LibMatDot
import proofs.«125034_j79121887527623_2_alg».proof.Proof.Bodies
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Aggregate

open Cert.KernelIdeal Cert.KernelIdeal.Gen Cert.KernelIdeal.Bodies
open Idealize.ShloMosaic Idealize.ShloMosaic.TcCoe Idealize.ShloMosaic.ValueIdx Idealize.SL.Sem Idealize.ShloMosaic.Tactic
open Idealize.ShloMosaic.Pipeline (Dat)

theorem hz : (![0, 0] : Fin 2 → Nat) = fun _ => 0 := funext fun a => by fin_cases a <;> rfl

section Body
variable {F : FTy → Type} [FloatOps F]

/-- What the body leaves in its output block: its one store's value, computed from the four loaded blocks and from the
    512 rows of the second block that start at the body's row offset. -/
theorem out_eq (c : Dev nD) (i : grid2.Coords) (arg1 : Memref sig .tc .vmem S512x8192 .f32) (harg1 : arg1.IsWhole) (arg2 : Memref sig .tc .vmem S8192x256 .f32) (harg2 : arg2.IsWhole) (arg3 : Memref sig .tc .vmem S512x1 .f32) (harg3 : arg3.IsWhole) (arg4 : Memref sig .tc .vmem S1x256 .f32) (harg4 : arg4.IsWhole) (arg5 : Memref sig .tc .vmem S512x256 .f32) (harg5 : arg5.IsWhole)
    (x0 : Vec F S512x8192 .f32) (x1 : Vec F S8192x256 .f32) (x2 : Vec F S512x1 .f32) (x3 : Vec F S1x256 .f32) :
    out2_A_4 c i arg1 harg1 arg2 harg2 arg3 harg3 arg4 harg4 arg5 harg5 x0 x1 x2 x3
      = k2_pay1 x0 x1 (View.ld x1 (Rect.unit (s := S8192x256) (k2_off1 i) S512x256.size (k2_off1_inb i))) x2 x3 := by
  unfold out2_A_4
  rw [View.read_writes_eq_canon _ _ _ (cover2_A_4 c i arg1 harg1 arg2 harg2 arg3 harg3 arg4 harg4 arg5 harg5 x0 x1 x2 x3)]
  unfold kernelRun2_A
  dsimp only
  try sl_unfold_words
  rw [View.canon_unit_zero hz]
  simp only [View.readAt_eq_ld, harg1.read_unread, harg2.read_unread, harg3.read_unread, harg4.read_unread,
    View.ld_unit_zero (S := S512x8192) hz, View.ld_unit_zero (S := S8192x256) hz, View.ld_unit_zero (S := S512x1) hz,
    View.ld_unit_zero (S := S1x256) hz]

end Body

variable (V : (c : Dev nD) → (b : Ref sig .tc) → Buf (Elt Ideal) ((c : Thread nD τ).loc b))

/-- The result array as a function of the adjacency, scaled-feature, scale and bias-row arrays: entry by entry. -/
def resultArr (A : S8192x8192.Idx → EReal) (S : S8192x256.Idx → EReal) (D : S8192x1.Idx → EReal) (B : S1x256.Idx → EReal) :
    S8192x256.Idx → EReal :=
  fun i => max (D (ix2 (⟨(i 0).val, idx2_lt0 i⟩ : Fin 8192) (0 : Fin 1))
      * ((∑ j : Fin 8192, A (ix2 (⟨(i 0).val, idx2_lt0 i⟩ : Fin 8192) j) * S (ix2 j (⟨(i 1).val, idx2_lt1 i⟩ : Fin 256)))
          + S (ix2 (⟨(i 0).val, idx2_lt0 i⟩ : Fin 8192) (⟨(i 1).val, idx2_lt1 i⟩ : Fin 256)))
      + B (ix2 (0 : Fin 1) (⟨(i 1).val, idx2_lt1 i⟩ : Fin 256))) 0

/-- The five windows' block indices at grid point t: (t, 0) for the adjacency, the scale and the result, (0, 0) for
    the scaled features and the bias row; and the body's second read of the scaled features starts at row 512·t. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ k2_off1 (grid2.coords t) (0 : Fin 2) = t.val * 512 ∧ k2_off1 (grid2.coords t) (1 : Fin 2) = 0 :=
  (by decide +kernel : ∀ t : Fin grid2.N, _)

/-- What grid point t writes back is block t of the result array of the four arrays as found. -/
theorem flushed_eq (c : Dev nD) (t : Fin cfg2.N) :
    (dat2 V c).flushed 4 t
      = ((cfg2.win 4).blk t).view.read (Elt Ideal) (resultArr (V c main_arg1) (V c main_v1) (V c main_v0) (V c main_v2)) := by
  show (cfg2.win 4).cut (grid2.coords t) ((dat2 V c).after 4 t) = _
  rw [after2_4]
  unfold outsAt2
  rw [out_eq]
  obtain ⟨e0, e1, e2, e3, e4, e5, e6, e7, e8, e9, e10, e11⟩ := idx_facts t
  funext y
  obtain ⟨p, q, rfl⟩ : ∃ (p : Fin 512) (q : Fin 256), y = ix2 p q := ⟨y 0, y 1, eq_ix2 y⟩
  show k2_pay1 (F := Ideal) (iblk2 V c 0 t) (iblk2 V c 1 t)
      (View.ld (iblk2 V c 1 t) (Rect.unit (s := S8192x256) (k2_off1 (grid2.coords t)) S512x256.size (k2_off1_inb (grid2.coords t))))
      (iblk2 V c 2 t) (iblk2 V c 3 t) (ix2 p q)
    = resultArr (V c main_arg1) (V c main_v1) (V c main_v0) (V c main_v2) (((cfg2.win 4).blk t).view.emb (ix2 p q))
  refine (aggregate_body (iblk2 V c 0 t) (iblk2 V c 1 t) _ (iblk2 V c 2 t) (iblk2 V c 3 t) p q).trans ?_
  unfold resultArr
  refine congrArg (fun u => max u 0) ?_
  refine congr (congrArg HAdd.hAdd (congr (congrArg HMul.hMul ?_)
    (congr (congrArg HAdd.hAdd (Finset.sum_congr rfl fun j _ => congr (congrArg HMul.hMul ?_) ?_)) ?_))) ?_
  · -- the scale of the row
    show V c main_v0 (((cfg2.win 2).blk t).view.emb (ix2 p (0 : Fin 1))) = V c main_v0 _
    refine congrArg (V c main_v0) ?_
    funext a
    apply Fin.ext
    match a with
    | ⟨0, _⟩ =>
      show win2_2.index t (0 : Fin 2) * 512 + 1 * p.val = win2_4.index t (0 : Fin 2) * 512 + 1 * p.val
      omega
    | ⟨1, _⟩ =>
      show win2_2.index t (1 : Fin 2) * 1 + 1 * 0 = 0
      omega
  · -- the adjacency entry
    show V c main_arg1 (((cfg2.win 0).blk t).view.emb (ix2 p j)) = V c main_arg1 _
    refine congrArg (V c main_arg1) ?_
    funext a
    apply Fin.ext
    match a with
    | ⟨0, _⟩ =>
      show win2_0.index t (0 : Fin 2) * 512 + 1 * p.val = win2_4.index t (0 : Fin 2) * 512 + 1 * p.val
      omega
    | ⟨1, _⟩ =>
      show win2_0.index t (1 : Fin 2) * 8192 + 1 * j.val = j.val
      omega
  · -- the scaled features of node j
    show V c main_v1 (((cfg2.win 1).blk t).view.emb (ix2 j q)) = V c main_v1 _
    refine congrArg (V c main_v1) ?_
    funext a
    apply Fin.ext
    match a with
    | ⟨0, _⟩ =>
      show win2_1.index t (0 : Fin 2) * 8192 + 1 * j.val = j.val
      omega
    | ⟨1, _⟩ =>
      show win2_1.index t (1 : Fin 2) * 256 + 1 * q.val = win2_4.index t (1 : Fin 2) * 256 + 1 * q.val
      omega
  · -- the block's own rows of the scaled features, read at the row offset
    show V c main_v1 (((cfg2.win 1).blk t).view.emb
        ((Rect.unit (s := S8192x256) (k2_off1 (grid2.coords t)) S512x256.size (k2_off1_inb (grid2.coords t))).idx (ix2 p q))) = V c main_v1 _
    refine congrArg (V c main_v1) ?_
    funext a
    apply Fin.ext
    match a with
    | ⟨0, _⟩ =>
      show win2_1.index t (0 : Fin 2) * 8192 + 1 * (k2_off1 (grid2.coords t) (0 : Fin 2) + 1 * p.val) = win2_4.index t (0 : Fin 2) * 512 + 1 * p.val
      omega
    | ⟨1, _⟩ =>
      show win2_1.index t (1 : Fin 2) * 256 + 1 * (k2_off1 (grid2.coords t) (1 : Fin 2) + 1 * q.val) = win2_4.index t (1 : Fin 2) * 256 + 1 * q.val
      omega
  · -- the bias entry
    show V c main_v2 (((cfg2.win 3).blk t).view.emb (ix2 (0 : Fin 1) q)) = V c main_v2 _
    refine congrArg (V c main_v2) ?_
    funext a
    apply Fin.ext
    match a with
    | ⟨0, _⟩ =>
      show win2_3.index t (0 : Fin 2) * 1 + 1 * 0 = 0
      omega
    | ⟨1, _⟩ =>
      show win2_3.index t (1 : Fin 2) * 256 + 1 * q.val = win2_4.index t (1 : Fin 2) * 256 + 1 * q.val
      omega

/-- An index of the result array is in point t's block iff each coordinate is in the block's range. -/
theorem mem_blk (t : Fin cfg2.N) (i : S8192x256.Idx) :
    i ∈ ((cfg2.win 4).blk t).view.set ↔ ∀ a : Fin 2, win2_4.index t a * S512x256.size a ≤ (i a).val ∧ (i a).val < win2_4.index t a * S512x256.size a + S512x256.size a := by
  show i ∈ ((View.whole main_v3).slice (win2_4.rect t)).set ↔ _
  rw [View.set_slice_whole, Rect.mem_set_unit]
  exact Iff.rfl

/-- Every entry of the result array is in the block of the point its row number divided by 512 names. -/
theorem cover (i : S8192x256.Idx) : ∃ t : Fin cfg2.N, (cfg2.win 4).flush t = true ∧ i ∈ ((cfg2.win 4).blk t).view.set := by
  have hi0 : (i 0).val < 8192 := (i 0).isLt
  have hi1 : (i 1).val < 256 := (i 1).isLt
  have hN : cfg2.N = 16 := N_2
  refine ⟨⟨(i 0).val / 512, by omega⟩, flush2_4 _, ?_⟩
  obtain ⟨e0, e1, e2, e3, e4, e5, e6, e7, e8, e9, e10, e11⟩ := idx_facts ⟨(i 0).val / 512, by omega⟩
  rw [mem_blk]
  intro a
  match a with
  | ⟨0, _⟩ =>
    show win2_4.index _ (0 : Fin 2) * 512 ≤ (i 0).val ∧ (i 0).val < win2_4.index _ (0 : Fin 2) * 512 + 512
    rw [e8]; show (i 0).val / 512 * 512 ≤ (i 0).val ∧ (i 0).val < (i 0).val / 512 * 512 + 512
    omega
  | ⟨1, _⟩ =>
    show win2_4.index _ (1 : Fin 2) * 256 ≤ (i 1).val ∧ (i 1).val < win2_4.index _ (1 : Fin 2) * 256 + 256
    rw [e9]; omega

/-- After the launch the result array is `resultArr` of the four arrays as the launch found them. -/
theorem final (c : Dev nD) :
    (dat2 V c).arrAt 4 cfg2.N = resultArr (V c main_arg1) (V c main_v1) (V c main_v0) (V c main_v2) :=
  (dat2 V c).arrAt_eq_of_cover 4 (resultArr (V c main_arg1) (V c main_v1) (V c main_v0) (V c main_v2)) (fun t _ => flushed_eq V c t) cover

end Cert.KernelIdeal.Aggregate

end
-- ==== Proof.Spec.lean ====
/-
  One graph-convolution layer with self-loops and symmetric degree normalisation, over the extended reals.

  For a square weight matrix `a` on the nodes, node features `x`, a feature map `w` and a bias `b`:

  • two-pass form: every node gets the scale `d i = rsqrt (Σ_j a i j + 1)`; the scaled features are
    `s j k = (Σ_l x j l · w l k) · d j`; the result is `max (d i · (Σ_j a i j · s j k + s i k) + b k) 0` — the self-loop
    enters as the extra summand `s i k`, and as the `+ 1` of the degree.
  • matrix form: the self-loop is the identity matrix added to `a`; the degree is the row sum of `a + I`, the scale
    `d' i = 1 / sqrt (degree i)`, the normalised matrix `((a + I) i j · d' i) · d' j`, and the result
    `max (Σ_j normalised i j · (Σ_l x j l · w l k) + b k) 0`.

  The two forms agree when every entry is a real number and every degree is positive: then both scales are the real
  `(√degree)⁻¹`, every sum is a finite real sum, and the equality is distributivity in the reals.
-/
import Idealize.ShloMosaic.PureOps.Ideal

noncomputable section

open scoped BigOperators

namespace Cert.Gcn

open Idealize.ShloMosaic

variable {ι κ μ : Type} [Fintype ι] [Fintype κ] [Fintype μ] [DecidableEq ι]

/-- The transformed features of node `i`, coordinate `k`: row `i` of `x` against column `k` of `w`. -/
def feat (x : ι → μ → EReal) (w : μ → κ → EReal) (i : ι) (k : κ) : EReal := ∑ l, x i l * w l k

/-- Two-pass form: the scale of node `i`, the reciprocal square root of one plus its row sum. -/
def scaleK (a : ι → ι → EReal) (i : ι) : EReal := Ideal.rsqrt ((∑ j, a i j) + 1)

/-- Two-pass form: the scaled features. -/
def scaled (a : ι → ι → EReal) (x : ι → μ → EReal) (w : μ → κ → EReal) (j : ι) (k : κ) : EReal :=
  feat x w j k * scaleK a j

/-- Two-pass form: the layer's result. -/
def outK (a : ι → ι → EReal) (x : ι → μ → EReal) (w : μ → κ → EReal) (b : κ → EReal) (i : ι) (k : κ) : EReal :=
  max (scaleK a i * ((∑ j, a i j * scaled a x w j k) + scaled a x w i k) + b k) 0

/-- The identity matrix's entry. -/
def selfLoop (i j : ι) : EReal := if i = j then 1 else 0

/-- Matrix form: the degree of node `i`, the row sum of `a + I`. -/
def degree (a : ι → ι → EReal) (i : ι) : EReal := ∑ j, (a i j + selfLoop i j)

/-- Matrix form: the scale of node `i`, one over the square root of its degree. -/
def scaleR (a : ι → ι → EReal) (i : ι) : EReal := Ideal.div 1 (Ideal.sqrt (degree a i))

/-- Matrix form: the layer's result. -/
def outR (a : ι → ι → EReal) (x : ι → μ → EReal) (w : μ → κ → EReal) (b : κ → EReal) (i : ι) (k : κ) : EReal :=
  max ((∑ j, (((a i j + selfLoop i j) * scaleR a i) * scaleR a j) * feat x w j k) + b k) 0

end Cert.Gcn

end
-- ==== Proof.Chain.lean ====
/-
  The three launches composed. Reading the program's boundary-by-boundary fold backwards from the result buffer:
  the result is the third launch's array of (the adjacency, the second launch's scaled features, the first launch's
  scales, the bias as a 1×256 row); the scaled features are the second launch's array of (the features, the weights,
  the first launch's scales); the scales are the first launch's array of the adjacency; and the adjacency, features,
  weights and bias are still the launch memory's, since no launch and no host operation writes an argument. Entry by
  entry this is the two-pass form of the layer.
-/
import proofs.«125034_j79121887527623_2_alg».proof.Proof.Gen.KernelIdeal.Frame
import proofs.«125034_j79121887527623_2_alg».proof.Proof.LibColumn
import proofs.«125034_j79121887527623_2_alg».proof.Proof.LibMatDot
import proofs.«125034_j79121887527623_2_alg».proof.Proof.Degree
import proofs.«125034_j79121887527623_2_alg».proof.Proof.Features
import proofs.«125034_j79121887527623_2_alg».proof.Proof.Aggregate
import proofs.«125034_j79121887527623_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The arrays each launch finds -/

/-- The second launch finds the features as launched. -/
theorem feats1 (c : Dev nD) : V1 m ρ c main_arg0 = m ((c : Thread nD τ).loc main_arg0) :=
  W1_of_ne m ρ c main_arg0 (by decide)

/-- The second launch finds the weights as launched. -/
theorem weights1 (c : Dev nD) : V1 m ρ c main_arg2 = m ((c : Thread nD τ).loc main_arg2) :=
  W1_of_ne m ρ c main_arg2 (by decide)

/-- The first launch leaves the scales of the launched adjacency. -/
theorem scales1 (c : Dev nD) : V1 m ρ c main_v0 = Degree.scaleArr (m ((c : Thread nD τ).loc main_arg1)) :=
  (W1_arr m ρ c 1).trans (Degree.final (V0 m ρ) c)

/-- The third launch finds the adjacency as launched. -/
theorem adj3 (c : Dev nD) : V3 m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- The third launch finds the first launch's scales. -/
theorem scales3 (c : Dev nD) : V3 m ρ c main_v0 = Degree.scaleArr (m ((c : Thread nD τ).loc main_arg1)) :=
  calc W3 m ρ c (Proc.devRef .tc main_v0)
    _ = W2 m ρ c (Proc.devRef .tc main_v0) := StableHlo.after_of_forall_not_mem (b := Proc.devRef .tc main_v0) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_v0) := (W2_arr m ρ c 2).trans (((dat1 (V1 m ρ) c).arrAt_in 2 rfl _).trans (A_eq1 (V1 m ρ) c 2))
    _ = Degree.scaleArr (m ((c : Thread nD τ).loc main_arg1)) := scales1 m ρ c

/-- The third launch finds the second launch's scaled features. -/
theorem scaled3 (c : Dev nD) : V3 m ρ c main_v1
    = Features.scaledArr (m ((c : Thread nD τ).loc main_arg0)) (m ((c : Thread nD τ).loc main_arg2))
        (Degree.scaleArr (m ((c : Thread nD τ).loc main_arg1))) :=
  calc W3 m ρ c (Proc.devRef .tc main_v1)
    _ = W2 m ρ c (Proc.devRef .tc main_v1) := StableHlo.after_of_forall_not_mem (b := Proc.devRef .tc main_v1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = Features.scaledArr (V1 m ρ c main_arg0) (V1 m ρ c main_arg2) (V1 m ρ c main_v0) := (W2_arr m ρ c 3).trans (Features.final (V1 m ρ) c)
    _ = _ := by rw [feats1, weights1, scales1]

/-- The third launch finds the bias recast as a 1×256 row. -/
theorem bias3 (c : Dev nD) : V3 m ρ c main_v2 = shapeCast S1x256 (m ((c : Thread nD τ).loc main_arg3)) shapeCasts_S256_S1x256 := by
  show StableHlo.after hostOps2 (W2 m ρ c) (Proc.devRef .tc main_v2) = _
  after_results
  have e : W2 m ρ c (Proc.devRef .tc main_arg3) = m ((c : Thread nD τ).loc main_arg3) :=
    (W2_of_ne m ρ c main_arg3 (by decide)).trans (W1_of_ne m ρ c main_arg3 (by decide))
  rw [e]
  rfl

/-! ## The result, entry by entry -/

/-- The result buffer after the run, at entry (i, k), is the two-pass form of the layer of the launched arrays. -/
theorem result_entry (c : Dev nD) (i : Fin 8192) (k : Fin 256) :
    (W4 m ρ c (Proc.devRef .tc main_v3) : S8192x256.Idx → EReal) (ix2 i k)
      = Cert.Gcn.outK (fun i j => (m ((c : Thread nD τ).loc main_arg1) : S8192x8192.Idx → EReal) (ix2 i j))
          (fun i l => (m ((c : Thread nD τ).loc main_arg0) : S8192x256.Idx → EReal) (ix2 i l))
          (fun l k => (m ((c : Thread nD τ).loc main_arg2) : S256x256.Idx → EReal) (ix2 l k))
          (fun k => (m ((c : Thread nD τ).loc main_arg3) : S256.Idx → EReal) (ix1 k)) i k := by
  have h4 : W4 m ρ c (Proc.devRef .tc main_v3)
      = Aggregate.resultArr (V3 m ρ c main_arg1) (V3 m ρ c main_v1) (V3 m ρ c main_v0) (V3 m ρ c main_v2) :=
    (W4_arr m ρ c 4).trans (Aggregate.final (V3 m ρ) c)
  rw [h4, adj3, scaled3, scales3, bias3]
  unfold Aggregate.resultArr
  rw [shapeCast_a_1a_apply]
  rfl

end Cert.KernelIdeal.Chain

end
-- ==== Proof.EyeEntry.lean ====
/-
  The entry of the identity matrix, as a program computes it: compare the row number (plus zero) with the column
  number as 32-bit words, and read the one-bit answer as a number.

  For row and column numbers below 2³² the two words are equal exactly when the numbers are, so the entry is
  `1` on the diagonal and `0` off it.
-/
import Idealize.ShloMosaic.PureOps.Ideal
import Idealize.ShloMosaic.Lib.ValueIdx

noncomputable section

namespace Cert.EyeEntry

open Idealize.ShloMosaic

/-- Two numbers below 2³² with the same 32-bit word are equal. -/
theorem ofNat_inj {i j : Nat} (hi : i < 2 ^ 32) (hj : j < 2 ^ 32) (h : BitVec.ofNat 32 i = BitVec.ofNat 32 j) : i = j := by
  have h' := congrArg BitVec.toNat h
  rw [BitVec.toNat_ofNat, BitVec.toNat_ofNat, Nat.mod_eq_of_lt hi, Nat.mod_eq_of_lt hj] at h'
  exact h'

/-- The identity entry at numbers `i`, `j` below 2³²: the one-bit comparison of the word of `i` plus zero with the word
    of `j`, read as an unsigned number, is `1` when `i = j` and `0` otherwise. -/
theorem eye_entry (i j : Nat) (hi : i < 2 ^ 32) (hj : j < 2 ^ 32) :
    (FloatOps.uitofp (F := Ideal) .f32 (IntOp.cmpi .eq (IntOp.addi (BitVec.ofNat 32 i) 0#32) (BitVec.ofNat 32 j)) : EReal)
      = if i = j then 1 else 0 := by
  show (((BitVec.ofBool (BitVec.ofNat 32 i + 0#32 == BitVec.ofNat 32 j)).toNat : ℝ) : EReal) = _
  rw [BitVec.add_zero]
  by_cases h : i = j
  · subst h
    rw [if_pos rfl, beq_self_eq_true]
    simp
  · have hne : (BitVec.ofNat 32 i == BitVec.ofNat 32 j) = false := by
      rw [beq_eq_false_iff_ne]
      exact fun hc => h (ofNat_inj hi hj hc)
    rw [if_neg h, hne]
    simp

/-- The same for coordinates in `Fin n`, `n` at most 2³². -/
theorem eye_entry_fin {n : Nat} (hn : n ≤ 2 ^ 32) (i j : Fin n) :
    (FloatOps.uitofp (F := Ideal) .f32 (IntOp.cmpi .eq (IntOp.addi (BitVec.ofNat 32 i.val) 0#32) (BitVec.ofNat 32 j.val)) : EReal)
      = if i = j then 1 else 0 := by
  rw [eye_entry i.val j.val (lt_of_lt_of_le i.isLt hn) (lt_of_lt_of_le j.isLt hn)]
  by_cases h : i = j
  · rw [if_pos h, if_pos (congrArg Fin.val h)]
  · rw [if_neg h, if_neg (fun hc => h (Fin.ext hc))]

end Cert.EyeEntry

end
-- ==== Proof.RefRead.lean ====
/-
  The reference program, read at an output coordinate, is the matrix form of the layer.

  Each operation's value at a coordinate is read from its operands' values at coordinates: the identity matrix's
  entry, the matrix plus the identity, its row sum (the degree), one over the square root of the degree (the scale),
  the matrix scaled by rows and by columns, the feature product, the product of the two, the bias and the maximum
  with zero. The long sums stay sums throughout.
-/
import proofs.«125034_j79121887527623_2_alg».proof.Proof.Gen.ReferenceIdeal.Read
import proofs.«125034_j79121887527623_2_alg».proof.Proof.Spec
import proofs.«125034_j79121887527623_2_alg».proof.Proof.EyeEntry

noncomputable section

open scoped BigOperators

namespace Cert.RefSide

open Idealize.ShloMosaic Idealize.ShloMosaic.ValueIdx Cert.ReferenceIdeal Cert.ReferenceIdeal.Read

/-- The f32 pattern of one denotes `1`. -/
theorem one_pattern : Ideal.ofBits .f32 0x3F800000#32 = 1 := by
  simp [Ideal.ofBits, Ideal.ieee]
  rw [← EReal.coe_mul, ← EReal.coe_one, EReal.coe_eq_coe_iff]
  norm_num

/-- The matrix argument as a function of two coordinates. -/
abbrev mat (x1 : FVec Ideal S8192x8192 .f32) : Fin 8192 → Fin 8192 → EReal := fun i j => x1 (ix2 i j)

/-- The identity matrix's entry. -/
theorem v5_entry (i j : Fin 8192) : val_main_v5 (F := Ideal) (ix2 i j) = Cert.Gcn.selfLoop i j := by
  rw [val_main_v5_apply, val_main_v4_apply, val_main_v3_apply, val_main_v0_apply, val_main_v1_apply, val_main_v2_apply,
    val_main_c_apply]
  exact Cert.EyeEntry.eye_entry_fin (by norm_num) i j

/-- The matrix plus the identity. -/
theorem v6_entry (x1 : FVec Ideal S8192x8192 .f32) (i j : Fin 8192) :
    val_main_v6 (F := Ideal) x1 (ix2 i j) = x1 (ix2 i j) + Cert.Gcn.selfLoop i j := by
  rw [val_main_v6_apply, v5_entry, Ideal.addf_def]

/-- The row sum: the degree. -/
theorem v7_entry (x1 : FVec Ideal S8192x8192 .f32) (i : Fin 8192) :
    val_main_v7 (F := Ideal) x1 (ix1 i) = Cert.Gcn.degree (mat x1) i := by
  rw [val_main_v7_apply, val_main_cst_apply, Ideal.ofBits_def, Ideal.ofBits_zero_f32, zero_add]
  unfold Cert.Gcn.degree
  refine Finset.sum_congr rfl fun k _ => ?_
  have e : idx_main_v7 (ix1 i) k = ix2 i k := funext fun a => Fin.ext (by match a with | ⟨0, _⟩ => rfl | ⟨1, _⟩ => rfl)
  rw [e, v6_entry]

/-- One over the square root of the degree: the scale. -/
theorem v10_entry (x1 : FVec Ideal S8192x8192 .f32) (i : Fin 8192) :
    val_main_v10 (F := Ideal) x1 (ix1 i) = Cert.Gcn.scaleR (mat x1) i := by
  rw [val_main_v10_apply, val_main_v9_apply, val_main_cst_0_apply, val_main_v8_apply, v7_entry, Ideal.ofBits_def,
    one_pattern, Ideal.hostUnary_sqrt_def, Ideal.hostDivf_def]
  rfl

/-- The matrix plus the identity, scaled by its row's and its column's scale. -/
theorem v16_entry (x1 : FVec Ideal S8192x8192 .f32) (i j : Fin 8192) :
    val_main_v16 (F := Ideal) x1 (ix2 i j)
      = ((x1 (ix2 i j) + Cert.Gcn.selfLoop i j) * Cert.Gcn.scaleR (mat x1) i) * Cert.Gcn.scaleR (mat x1) j := by
  have er : idx_main_v11 (idx_main_v12 (ix2 i j)) = ix1 i := funext fun a => Fin.ext (by match a with | ⟨0, _⟩ => rfl)
  have ec : idx_main_v14 (idx_main_v15 (ix2 i j)) = ix1 j := funext fun a => Fin.ext (by match a with | ⟨0, _⟩ => rfl)
  rw [val_main_v16_apply, val_main_v13_apply, v6_entry, val_main_v12_apply, val_main_v11_apply, er, v10_entry,
    val_main_v15_apply, val_main_v14_apply, ec, v10_entry, Ideal.mulf_def, Ideal.mulf_def]

/-- The feature product. -/
theorem v17_entry (x0 : FVec Ideal S8192x256 .f32) (x2 : FVec Ideal S256x256 .f32) (j : Fin 8192) (k : Fin 256) :
    val_main_v17 (F := Ideal) x0 x2 (ix2 j k)
      = Cert.Gcn.feat (fun i l => x0 (ix2 i l)) (fun l k => x2 (ix2 l k)) j k := by
  rw [val_main_v17_apply]
  unfold Cert.Gcn.feat
  refine Finset.sum_congr rfl fun l _ => ?_
  have el : lidx_main_v17 (ix2 j k) l = ix2 j l := funext fun a => Fin.ext (by match a with | ⟨0, _⟩ => rfl | ⟨1, _⟩ => rfl)
  have er : ridx_main_v17 (ix2 j k) l = ix2 l k := funext fun a => Fin.ext (by match a with | ⟨0, _⟩ => rfl | ⟨1, _⟩ => rfl)
  rw [el, er]

/-- The scaled matrix against the feature product. -/
theorem v18_entry (x0 : FVec Ideal S8192x256 .f32) (x1 : FVec Ideal S8192x8192 .f32) (x2 : FVec Ideal S256x256 .f32)
    (i : Fin 8192) (k : Fin 256) :
    val_main_v18 (F := Ideal) x0 x1 x2 (ix2 i k)
      = ∑ j : Fin 8192, (((x1 (ix2 i j) + Cert.Gcn.selfLoop i j) * Cert.Gcn.scaleR (mat x1) i) * Cert.Gcn.scaleR (mat x1) j)
          * Cert.Gcn.feat (fun i l => x0 (ix2 i l)) (fun l k => x2 (ix2 l k)) j k := by
  rw [val_main_v18_apply]
  refine Finset.sum_congr rfl fun j _ => ?_
  have el : lidx_main_v18 (ix2 i k) j = ix2 i j := funext fun a => Fin.ext (by match a with | ⟨0, _⟩ => rfl | ⟨1, _⟩ => rfl)
  have er : ridx_main_v18 (ix2 i k) j = ix2 j k := funext fun a => Fin.ext (by match a with | ⟨0, _⟩ => rfl | ⟨1, _⟩ => rfl)
  rw [el, er, v16_entry, v17_entry]

/-- The bias, spread over the rows. -/
theorem v20_entry (x3 : FVec Ideal S256 .f32) (i : Fin 8192) (k : Fin 256) :
    val_main_v20 (F := Ideal) x3 (ix2 i k) = x3 (ix1 k) := by
  have e : idx_main_v19 (idx_main_v20 (ix2 i k)) = ix1 k := funext fun a => Fin.ext (by match a with | ⟨0, _⟩ => rfl)
  rw [val_main_v20_apply, val_main_v19_apply, e]

/-- The zero the result is compared with. -/
theorem call0_v0_entry (i : S8192x256.Idx) : val_main_call0_v0 (F := Ideal) i = 0 := by
  rw [val_main_call0_v0_apply, val_main_call0_cst_apply, Ideal.ofBits_def, Ideal.ofBits_zero_f32]

/-- The reference's result at row `i`, column `k` is the matrix form of the layer. -/
theorem ref_eq (x0 : FVec Ideal S8192x256 .f32) (x1 : FVec Ideal S8192x8192 .f32) (x2 : FVec Ideal S256x256 .f32)
    (x3 : FVec Ideal S256 .f32) (i : Fin 8192) (k : Fin 256) :
    val_main_v22 (F := Ideal) x0 x1 x2 x3 (ix2 i k)
      = Cert.Gcn.outR (fun i j => x1 (ix2 i j)) (fun i l => x0 (ix2 i l)) (fun l k => x2 (ix2 l k)) (fun k => x3 (ix1 k)) i k := by
  rw [val_main_v22_apply, val_main_v21_apply, v18_entry, v20_entry, call0_v0_entry, Ideal.addf_def, Ideal.maximumf_def]
  rfl

end Cert.RefSide

end
-- ==== Proof.LibEReal.lean ====
/-
  Two facts about finiteness on the extended reals, and the float pattern of +∞.

  • `add_sub_cancel_real`: for a REAL number `a` and ANY extended real `q`, `a + (q - a) = q`.  This is the forward
    value of a "straight-through" expression `a + (q - a)`; it fails for infinite `a` (`⊤ + (q - ⊤) = ⊥` for real `q`).
  • `real_of_abs_lt_top`: an extended real whose absolute value `max x (-x)` is below `⊤` is a real number — the reading
    of a test "every entry has absolute value below +∞".
  • `inf_pattern`, `lt_top_of_cmp`: the f32 pattern 0x7F800000 denotes `⊤`, and an ordered less-than comparison against
    it that came out true says the left side is below `⊤`.
-/
import Idealize.ShloMosaic.PureOps.Ideal

noncomputable section

namespace Cert.LibEReal

open Idealize.ShloMosaic

/-- Adding a real number `a` to `q - a` gives `q` back, for EVERY extended real `q`: at `q = ⊤` both sides are `⊤`, at
    `q = ⊥` both are `⊥`, and between them it is the cancellation in the reals. -/
theorem add_sub_cancel_real (a : ℝ) (q : EReal) : (a : EReal) + (q - (a : EReal)) = q := by
  induction q using EReal.rec with
  | bot => rw [EReal.bot_sub, EReal.add_bot]
  | top => rw [EReal.top_sub_coe, EReal.coe_add_top]
  | coe s => rw [← EReal.coe_sub, ← EReal.coe_add]; exact congrArg _ (by ring)

/-- An extended real whose absolute value is below `⊤` is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The f32 pattern of +∞ denotes `⊤`. -/
theorem inf_pattern : Ideal.ofBits .f32 0x7F800000#32 = ⊤ := by simp [Ideal.ofBits, Ideal.ieee]

/-- An ordered less-than test against the pattern of +∞ that is true says the left side is below `⊤`. -/
theorem lt_top_of_cmp (x : EReal) (h : Ideal.cmp .olt x (Ideal.ofBits .f32 0x7F800000#32) = 1#1) : x < ⊤ := by
  rw [inf_pattern] at h
  by_contra hc
  simp [Ideal.cmp, hc] at h

end Cert.LibEReal

end
-- ==== Proof.PreRead.lean ====
/-
  What the precondition says of the inputs, read back from the program that computes it.

  The precondition is a conjunction of five tests, each an "all" over an array of one-bit answers: the absolute value
  of every entry of each of the four inputs is below +∞, and every row sum of the matrix plus the identity is above
  zero. A conjunction of bits that is 1 has every bit 1; an "all" that is 1 has every answer 1; an entry whose
  absolute value is below `⊤` is a real number; and the row sum of the matrix plus the identity is the degree.
-/
import proofs.«125034_j79121887527623_2_alg».proof.Pre_finite_inputs
import proofs.«125034_j79121887527623_2_alg».proof.Proof.Gen.Pre_finite_inputs
import proofs.«125034_j79121887527623_2_alg».proof.Proof.LibEReal
import proofs.«125034_j79121887527623_2_alg».proof.Proof.Spec
import proofs.«125034_j79121887527623_2_alg».proof.Proof.EyeEntry
import Idealize.ShloMosaic.Lib.ReduceAll
import Idealize.ShloMosaic.Lib.ValueIdx
import Idealize.ShloMosaic.PureOps.Ideal.Laws

noncomputable section

open scoped BigOperators

namespace Cert.PreSide

open Idealize.ShloMosaic Idealize.ShloMosaic.ValueIdx Cert.Pre_finite_inputs

/-- The shape with no axes has one index. -/
instance : Subsingleton S_.Idx := ⟨fun a b => funext fun d => d.elim0⟩

variable [Facts]

/-- An entry whose test "absolute value below +∞" came out true is a real number. -/
theorem real_of_test {s : Shape} (hb : S_.BroadcastsInDim s (![] : Fin 0 → Fin s.rank)) (x : FVec Ideal s .f32) (i : s.Idx)
    (h : cmpf .olt (Host.absf x) (broadcastInDim s ![] hb (constant S_ .f32 0x7F800000#32)) i = 1#1) :
    ∃ r : ℝ, x i = (r : EReal) := by
  apply Cert.LibEReal.real_of_abs_lt_top
  apply Cert.LibEReal.lt_top_of_cmp
  exact h

/-- A value whose test "above zero" came out true is positive. -/
theorem pos_of_test {s : Shape} (hb : S_.BroadcastsInDim s (![] : Fin 0 → Fin s.rank)) (y : FVec Ideal s .f32) (i : s.Idx)
    (h : cmpf .ogt y (broadcastInDim s ![] hb (constant S_ .f32 0x00000000#32)) i = 1#1) : 0 < y i := by
  have h' : Ideal.cmp .ogt (y i) (Ideal.ofBits .f32 0x00000000#32) = 1#1 := h
  rw [Ideal.ofBits_zero_f32] at h'
  by_contra hc
  simp [Ideal.cmp, hc] at h'

/-- The host's sum along the rows, read at row `i`: the initial value plus the sum of the row. -/
theorem rowsum_read (y : FVec Ideal S8192x8192 .f32) (init : FVec Ideal S_ .f32) (i : Fin 8192) :
    Host.reduceAdd y init Facts.reducesTo_S8192x8192_S8192_d1 Facts.h_S_ (ix1 i)
      = init (Shape.Idx.first Facts.h_S_) + ∑ k : Fin 8192, y (ix2 i k) := by
  simp only [Host.reduceAdd, Ideal.hostReduceAdd_def]
  rw [Ideal.hostReduceAdd_single Facts.reducesTo_S8192x8192_S8192_d1 (by decide)]
  refine congrArg (_ + ·) (Finset.sum_congr rfl fun k _ => ?_)
  exact congrArg y (funext fun a => Fin.ext (by match a with | ⟨0, _⟩ => rfl | ⟨1, _⟩ => rfl))

/-- The matrix plus the identity, at row `i` and column `k`. -/
theorem plusEye_entry (x1 : FVec Ideal S8192x8192 .f32) (i k : Fin 8192) :
    addf x1 (uitofp .f32 (cmpi .eq (addi (iotaInDim S8192x8192 32 0)
        (broadcastInDim S8192x8192 ![] Facts.bcast_S_S8192x8192 (constantI S_ 32 0#32))) (iotaInDim S8192x8192 32 1))) (ix2 i k)
      = x1 (ix2 i k) + Cert.Gcn.selfLoop i k := by
  show x1 (ix2 i k) + FloatOps.uitofp (F := Ideal) .f32
    (IntOp.cmpi .eq (IntOp.addi (BitVec.ofNat 32 i.val) 0#32) (BitVec.ofNat 32 k.val)) = _
  rw [Cert.EyeEntry.eye_entry_fin (by norm_num) i k]
  rfl

/-- The precondition gives: every entry of the four inputs is a real number, and every degree is positive. -/
theorem pre_reads (x0 : FVec Ideal Cert.Pre_finite_inputs.S8192x256 .f32) (x1 : FVec Ideal Cert.Pre_finite_inputs.S8192x8192 .f32)
    (x2 : FVec Ideal Cert.Pre_finite_inputs.S256x256 .f32) (x3 : FVec Ideal Cert.Pre_finite_inputs.S256 .f32)
    (h : Cert.Pre_finite_inputs.fn (F := Ideal) x0 x1 x2 x3 = fun _ => 1#1) :
    (∀ (i : Fin 8192) (l : Fin 256), ∃ r : ℝ, x0 (ix2 i l) = (r : EReal))
      ∧ (∀ (i j : Fin 8192), ∃ r : ℝ, x1 (ix2 i j) = (r : EReal))
      ∧ (∀ (l k : Fin 256), ∃ r : ℝ, x2 (ix2 l k) = (r : EReal))
      ∧ (∀ (k : Fin 256), ∃ r : ℝ, x3 (ix1 k) = (r : EReal))
      ∧ (∀ i : Fin 8192, 0 < Cert.Gcn.degree (fun i j => x1 (ix2 i j)) i) := by
  have h0 := congrFun h ValueIdx.ix0
  dsimp only [fn, fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i l => ?_, fun i j => ?_, fun l k => ?_, fun k => ?_, fun i => ?_⟩
  · exact real_of_test _ x0 (ix2 i l) (Host.reduce_andi_all _ _ _ _ _ h1 (ix2 i l))
  · exact real_of_test _ x1 (ix2 i j) (Host.reduce_andi_all _ _ _ _ _ h2 (ix2 i j))
  · exact real_of_test _ x2 (ix2 l k) (Host.reduce_andi_all _ _ _ _ _ h3 (ix2 l k))
  · exact real_of_test _ x3 (ix1 k) (Host.reduce_andi_all _ _ _ _ _ h4 (ix1 k))
  · have hp := pos_of_test _ _ (ix1 i) (Host.reduce_andi_all _ _ _ _ _ h5 (ix1 i))
    rw [rowsum_read] at hp
    have e : (constant S_ .f32 0x00000000#32 : FVec Ideal S_ .f32) (Shape.Idx.first Facts.h_S_) = 0 :=
      Ideal.ofBits_zero_f32
    rw [e, zero_add, Finset.sum_congr rfl fun k _ => plusEye_entry x1 i k] at hp
    exact hp

end Cert.PreSide

end
-- ==== Proof.SpecLaw.lean ====
/-
  The two forms of the graph-convolution layer agree on real inputs with positive degrees.

  Every entry is the image of a real number, so every finite sum is the image of the real sum, the degree of node `i`
  is the image of `σ i = Σ_j a i j + 1`, positive by hypothesis, and both scales are the image of `d i = (√(σ i))⁻¹`.
  What is left is an identity of real numbers:
  `Σ_j ((a i j + δ i j) · d i · d j) · p j k = d i · (Σ_j a i j · (p j k · d j) + p i k · d i)`,
  which is distributivity, the `δ` term picking out `j = i`.
-/
import proofs.«125034_j79121887527623_2_alg».proof.Proof.Spec

noncomputable section

open scoped BigOperators

namespace Cert.Gcn

open Idealize.ShloMosaic

variable {ι κ μ : Type} [Fintype ι] [Fintype κ] [Fintype μ] [DecidableEq ι]

/-- The image of a finite real sum is the sum of the images. -/
theorem coe_sum {α : Type} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity entry is the image of the real identity entry. -/
theorem selfLoop_coe (i j : ι) : selfLoop i j = (((if i = j then 1 else 0 : ℝ)) : EReal) := by
  unfold selfLoop
  by_cases h : i = j
  · rw [if_pos h, if_pos h, EReal.coe_one]
  · rw [if_neg h, if_neg h, EReal.coe_zero]

/-- The real row sum of `a + I` is the row sum of `a` plus one. -/
theorem sum_add_delta (ar : ι → ι → ℝ) (i : ι) : (∑ j, (ar i j + (if i = j then 1 else 0 : ℝ))) = (∑ j, ar i j) + 1 := by
  rw [Finset.sum_add_distrib, Finset.sum_ite_eq]
  simp

/-- The degree of a real matrix is the image of `Σ_j a i j + 1`. -/
theorem degree_coe (ar : ι → ι → ℝ) (i : ι) : degree (fun i j => (ar i j : EReal)) i = (((∑ j, ar i j) + 1 : ℝ) : EReal) := by
  unfold degree
  rw [← sum_add_delta, coe_sum]
  refine Finset.sum_congr rfl fun j _ => ?_
  rw [selfLoop_coe, EReal.coe_add]

/-- The two-pass scale at a positive real degree. -/
theorem rsqrt_coe (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 hr.le), if_neg hr.ne']

/-- The matrix-form scale at a positive real degree. -/
theorem div_sqrt_coe (r : ℝ) (hr : 0 < r) : Ideal.div 1 (Ideal.sqrt (r : EReal)) = (((Real.sqrt r)⁻¹ : ℝ) : EReal) := by
  have hs : Ideal.sqrt (r : EReal) = ((Real.sqrt r : ℝ) : EReal) := by
    show (if r < 0 then (⊥ : EReal) else ((Real.sqrt r : ℝ) : EReal)) = _
    rw [if_neg (not_lt.2 hr.le)]
  have hne : ((Real.sqrt r : ℝ) : EReal) ≠ 0 := EReal.coe_ne_zero.2 (Real.sqrt_ne_zero'.2 hr)
  rw [hs]
  unfold Ideal.div
  rw [if_neg hne, one_mul, ← EReal.coe_inv]

/-- The feature product of real inputs is the image of the real product. -/
theorem feat_coe (xr : ι → μ → ℝ) (wr : μ → κ → ℝ) (i : ι) (k : κ) :
    feat (fun i l => (xr i l : EReal)) (fun l k => (wr l k : EReal)) i k = ((∑ l, xr i l * wr l k : ℝ) : EReal) := by
  unfold feat
  rw [coe_sum]
  refine Finset.sum_congr rfl fun l _ => ?_
  rw [EReal.coe_mul]

/-- The two-pass scale of a real matrix with positive `Σ_j a i j + 1`. -/
theorem scaleK_coe (ar : ι → ι → ℝ) (i : ι) (h : 0 < (∑ j, ar i j) + 1) :
    scaleK (fun i j => (ar i j : EReal)) i = (((Real.sqrt ((∑ j, ar i j) + 1))⁻¹ : ℝ) : EReal) := by
  unfold scaleK
  rw [← coe_sum, ← EReal.coe_one, ← EReal.coe_add]
  exact rsqrt_coe _ h

/-- The matrix-form scale of a real matrix with positive `Σ_j a i j + 1`. -/
theorem scaleR_coe (ar : ι → ι → ℝ) (i : ι) (h : 0 < (∑ j, ar i j) + 1) :
    scaleR (fun i j => (ar i j : EReal)) i = (((Real.sqrt ((∑ j, ar i j) + 1))⁻¹ : ℝ) : EReal) := by
  unfold scaleR
  rw [degree_coe]
  exact div_sqrt_coe _ h

/-- The identity in the reals: the normalised matrix against `p` is the row scale times (the matrix against the
    column-scaled `p`, plus the node's own scaled entry). -/
theorem real_identity (ar : ι → ι → ℝ) (p d : ι → ℝ) (i : ι) :
    (∑ j, (((ar i j + (if i = j then 1 else 0 : ℝ)) * d i) * d j) * p j)
      = d i * ((∑ j, ar i j * (p j * d j)) + p i * d i) := by
  have h : ∀ j, (((ar i j + (if i = j then 1 else 0 : ℝ)) * d i) * d j) * p j
      = d i * (ar i j * (p j * d j)) + (if i = j then d i * (p j * d j) else 0) := by
    intro j
    by_cases hij : i = j
    · rw [if_pos hij, if_pos hij]; ring
    · rw [if_neg hij, if_neg hij]; ring
  rw [Finset.sum_congr rfl fun j _ => h j, Finset.sum_add_distrib, ← Finset.mul_sum, Finset.sum_ite_eq]
  rw [if_pos (Finset.mem_univ i)]
  ring

/-- The two forms agree on real matrices with positive degrees. -/
theorem outK_eq_outR_real (ar : ι → ι → ℝ) (xr : ι → μ → ℝ) (wr : μ → κ → ℝ) (br : κ → ℝ)
    (hσ : ∀ i, 0 < (∑ j, ar i j) + 1) (i : ι) (k : κ) :
    outK (fun i j => (ar i j : EReal)) (fun i l => (xr i l : EReal)) (fun l k => (wr l k : EReal)) (fun k => (br k : EReal)) i k
      = outR (fun i j => (ar i j : EReal)) (fun i l => (xr i l : EReal)) (fun l k => (wr l k : EReal)) (fun k => (br k : EReal)) i k := by
  have hK : ∀ j, scaleK (fun i j => (ar i j : EReal)) j = (((Real.sqrt ((∑ j', ar j j') + 1))⁻¹ : ℝ) : EReal) :=
    fun j => scaleK_coe ar j (hσ j)
  have hR : ∀ j, scaleR (fun i j => (ar i j : EReal)) j = (((Real.sqrt ((∑ j', ar j j') + 1))⁻¹ : ℝ) : EReal) :=
    fun j => scaleR_coe ar j (hσ j)
  unfold outK outR scaled
  refine congrArg (fun t => max (t + (br k : EReal)) 0) ?_
  simp only [hK, hR, feat_coe, selfLoop_coe, ← EReal.coe_mul, ← EReal.coe_add, ← coe_sum]
  exact congrArg _ (real_identity ar (fun j => ∑ l, xr j l * wr l k) (fun j => (Real.sqrt ((∑ j', ar j j') + 1))⁻¹) i).symm

/-- The two forms of the layer agree when every entry is a real number and every degree is positive. -/
theorem outK_eq_outR (a : ι → ι → EReal) (x : ι → μ → EReal) (w : μ → κ → EReal) (b : κ → EReal)
    (ha : ∀ i j, ∃ r : ℝ, a i j = (r : EReal)) (hx : ∀ i l, ∃ r : ℝ, x i l = (r : EReal))
    (hw : ∀ l k, ∃ r : ℝ, w l k = (r : EReal)) (hb : ∀ k, ∃ r : ℝ, b k = (r : EReal))
    (hpos : ∀ i, 0 < degree a i) : outK a x w b = outR a x w b := by
  choose ar har using ha
  choose xr hxr using hx
  choose wr hwr using hw
  choose br hbr using hb
  obtain rfl : a = fun i j => (ar i j : EReal) := funext fun i => funext fun j => har i j
  obtain rfl : x = fun i l => (xr i l : EReal) := funext fun i => funext fun l => hxr i l
  obtain rfl : w = fun l k => (wr l k : EReal) := funext fun l => funext fun k => hwr l k
  obtain rfl : b = fun k => (br k : EReal) := funext fun k => hbr k
  have hσ : ∀ i, 0 < (∑ j, ar i j) + 1 := fun i => by
    have h := hpos i
    rw [degree_coe] at h
    exact EReal.coe_pos.1 h
  funext i k
  exact outK_eq_outR_real ar xr wr br hσ i k

end Cert.Gcn

end
-- ==== Proof.lean ====
/-
  One graph-convolution layer — relu(D^(-1/2) (A + I) D^(-1/2) (X W) + b) with D the row sums of A + I — computed by three
  kernel launches (the scales, the scaled features, the aggregation with the self-loop as an extra summand) agrees
  with the matrix form of the reference, on the extended reals, when every input is finite and every degree
  (row sum of A + I) is positive.

  The three frames: the two kernel programs' are the generated frame theorems, the reference's is its generated run
  with the result dropped. The idealization rewrote nothing, so that claim is trivial. For the equality of results:
  the kernel's run ends with the result buffer at the fold of its three launches, which entry by entry is the
  two-pass form of the layer (Chain.result_entry); the reference's run ends at a term that entry by entry is the matrix
  form (RefSide.ref_eq); the precondition gives real entries and positive degrees (PreSide.pre_reads); and under
  these the two forms are equal (Gcn.outK_eq_outR).
-/
import proofs.«125034_j79121887527623_2_alg».proof.Defs
import proofs.«125034_j79121887527623_2_alg».proof.Proof.Gen.Kernel
import proofs.«125034_j79121887527623_2_alg».proof.Proof.Gen.Kernel.Skeleton
import proofs.«125034_j79121887527623_2_alg».proof.Proof.Gen.Kernel.Launch
import proofs.«125034_j79121887527623_2_alg».proof.Proof.Gen.Kernel.Points
import proofs.«125034_j79121887527623_2_alg».proof.Proof.Gen.Kernel.Frame
import proofs.«125034_j79121887527623_2_alg».proof.Proof.Gen.KernelIdeal
import proofs.«125034_j79121887527623_2_alg».proof.Proof.Gen.KernelIdeal.Skeleton
import proofs.«125034_j79121887527623_2_alg».proof.Proof.Gen.KernelIdeal.Launch
import proofs.«125034_j79121887527623_2_alg».proof.Proof.Gen.KernelIdeal.Points
import proofs.«125034_j79121887527623_2_alg».proof.Proof.Gen.KernelIdeal.Frame
import proofs.«125034_j79121887527623_2_alg».proof.Proof.Gen.ReferenceIdeal
import proofs.«125034_j79121887527623_2_alg».proof.Proof.Gen.Pre_finite_inputs
import proofs.«125034_j79121887527623_2_alg».proof.Proof.Gen.ReferenceIdeal.Run
import proofs.«125034_j79121887527623_2_alg».proof.Proof.Gen.ReferenceIdeal.Read
import proofs.«125034_j79121887527623_2_alg».proof.Proof.KernelRun
import proofs.«125034_j79121887527623_2_alg».proof.Proof.Chain
import proofs.«125034_j79121887527623_2_alg».proof.Proof.RefRead
import proofs.«125034_j79121887527623_2_alg».proof.Proof.PreRead
import proofs.«125034_j79121887527623_2_alg».proof.Proof.SpecLaw
import Idealize.ShloMosaic.Adequacy
import Idealize.ShloMosaic.Init

noncomputable section

namespace Cert.Proof

open Idealize.ShloMosaic Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end, and entry by entry the kernel's two-pass value is the reference's matrix value. -/
theorem algebraic : Cert.algebraic_KernelIdeal_ReferenceIdeal := by
  intro m ρ m' ρ' hpre hagree
  refine ⟨fun c => Cert.KernelIdeal.Gen.W4 m ρ c (Proc.devRef .tc Cert.KernelIdeal.main_v3),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v22_eq]
  obtain ⟨hx, ha, hw, hb, hpos⟩ := Cert.PreSide.pre_reads _ _ _ _ (hpre c)
  funext idx
  obtain ⟨i, k, rfl⟩ : ∃ (i : Fin 8192) (k : Fin 256), idx = ix2 i k := ⟨idx 0, idx 1, eq_ix2 idx⟩
  rw [Cert.RefSide.ref_eq]
  exact ((Cert.KernelIdeal.Chain.result_entry m ρ c i k).trans
    (congrFun (congrFun (Cert.Gcn.outK_eq_outR _ _ _ _ ha hx hw hb hpos) i) k)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
